-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x2048x64 : Shape := ⟨4, ![2, 12, 2048, 64]⟩
abbrev S_ : Shape := ⟨0, ![]⟩

class Facts : Prop where
  bcast_S_S2x12x2048x64 : S_.BroadcastsInDim S2x12x2048x64 (![] : Fin 0 → Fin S2x12x2048x64.rank)
  reducesTo_S2x12x2048x64_S_d0_1_2_3 : S2x12x2048x64.ReducesTo [0, 1, 2, 3] S_
  h_S_ : 0 < S_.numel

variable [Facts]

def fn {F : FTy → Type} [FloatOps F] (main_arg0 : FVec F S2x12x2048x64 .f32) (main_arg1 : FVec F S2x12x2048x64 .f32) (main_arg2 : FVec F S2x12x2048x64 .f32) : IVec S_ 1 :=
  let main_v0 : FVec F S2x12x2048x64 .f32 := Host.absf main_arg0
  let main_cst : FVec F S_ .f32 := constant S_ .f32 0x7F800000#32
  let main_v1 : FVec F S2x12x2048x64 .f32 := broadcastInDim S2x12x2048x64 ![] bcast_S_S2x12x2048x64 main_cst
  let main_v2 : IVec S2x12x2048x64 1 := cmpf .olt main_v0 main_v1
  let main_c : IVec S_ 1 := constantI S_ 1 1#1
  let main_v3 : IVec S_ 1 := (fun x v => Host.reduce IntOp.andi x v reducesTo_S2x12x2048x64_S_d0_1_2_3 h_S_) main_v2 main_c
  let main_v4 : FVec F S2x12x2048x64 .f32 := Host.absf main_arg1
  let main_cst_0 : FVec F S_ .f32 := constant S_ .f32 0x7F800000#32
  let main_v5 : FVec F S2x12x2048x64 .f32 := broadcastInDim S2x12x2048x64 ![] bcast_S_S2x12x2048x64 main_cst_0
  let main_v6 : IVec S2x12x2048x64 1 := cmpf .olt main_v4 main_v5
  let main_c_1 : IVec S_ 1 := constantI S_ 1 1#1
  let main_v7 : IVec S_ 1 := (fun x v => Host.reduce IntOp.andi x v reducesTo_S2x12x2048x64_S_d0_1_2_3 h_S_) main_v6 main_c_1
  let main_v8 : IVec S_ 1 := andi main_v3 main_v7
  let main_v9 : FVec F S2x12x2048x64 .f32 := Host.absf main_arg2
  let main_cst_2 : FVec F S_ .f32 := constant S_ .f32 0x7F800000#32
  let main_v10 : FVec F S2x12x2048x64 .f32 := broadcastInDim S2x12x2048x64 ![] bcast_S_S2x12x2048x64 main_cst_2
  let main_v11 : IVec S2x12x2048x64 1 := cmpf .olt main_v9 main_v10
  let main_c_3 : IVec S_ 1 := constantI S_ 1 1#1
  let main_v12 : IVec S_ 1 := (fun x v => Host.reduce IntOp.andi x v reducesTo_S2x12x2048x64_S_d0_1_2_3 h_S_) main_v11 main_c_3
  let main_v13 : IVec S_ 1 := andi main_v8 main_v12
  main_v13
-- ==== Kernel.lean ====
abbrev S2x12x2048x64 : Shape := ⟨4, ![2, 12, 2048, 64]⟩
abbrev S24x2048x64 : Shape := ⟨3, ![24, 2048, 64]⟩
abbrev S24x2048x2048 : Shape := ⟨3, ![24, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S2x12x2048x2048 : Shape := ⟨4, ![2, 12, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S24x2048x64, .f32⟩
  | .hbm, ⟨4, _⟩ => ⟨S24x2048x64, .f32⟩
  | .hbm, ⟨5, _⟩ => ⟨S24x2048x64, .f32⟩
  | .hbm, ⟨6, _⟩ => ⟨S24x2048x64, .f32⟩
  | .hbm, ⟨7, _⟩ => ⟨S24x2048x2048, .f32⟩
  | .hbm, ⟨8, _⟩ => ⟨S2x12x2048x64, .f32⟩
  | .hbm, ⟨9, _⟩ => ⟨S2x12x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | .local _ .vmem, ⟨8, _⟩ => ⟨S1x256x2048, .f32⟩
  | .local _ .vmem, ⟨9, _⟩ => ⟨S1x256x2048, .f32⟩
  | _, _ => ⟨S2x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![24, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x12x2048x64_S24x2048x64 : S2x12x2048x64.ShapeCasts S24x2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x64_S1x256x64 : S256x64.ShapeCasts S1x256x64
  shapeCasts_S24x2048x64_S2x12x2048x64 : S24x2048x64.ShapeCasts S2x12x2048x64
  shapeCasts_S24x2048x2048_S2x12x2048x2048 : S24x2048x2048.ShapeCasts S2x12x2048x2048
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S24x2048x64.size a
  hwx0_0 : ∀ i : grid0.Coords, EltTy.bits .f32 = 32 ∨ (Rect.block (s := S24x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S24x2048x64.size a
  hwx0_1 : ∀ i : grid0.Coords, EltTy.bits .f32 = 32 ∨ (Rect.block (s := S24x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S24x2048x64.size a
  hwx0_2 : ∀ i : grid0.Coords, EltTy.bits .f32 = 32 ∨ (Rect.block (s := S24x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S24x2048x64.size a
  hwx0_3 : ∀ i : grid0.Coords, EltTy.bits .f32 = 32 ∨ (Rect.block (s := S24x2048x64) S1x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S24x2048x2048.size a
  hwx0_4 : ∀ i : grid0.Coords, EltTy.bits .f32 = 32 ∨ (Rect.block (s := S24x2048x2048) S1x256x2048.size (cc0_transform_4 i) (hinb0_4 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x12x2048x64 : Shape := ⟨4, ![2, 12, 2048, 64]⟩
abbrev S2x12x2048x2048 : Shape := ⟨4, ![2, 12, 2048, 2048]⟩
abbrev S_ : Shape := ⟨0, ![]⟩
abbrev S2x12x2048 : Shape := ⟨3, ![2, 12, 2048]⟩
abbrev S2x12x2048x1 : Shape := ⟨4, ![2, 12, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x12x2048x2048, .f32⟩
  | .hbm, ⟨4, _⟩ => ⟨S_, .f32⟩
  | .hbm, ⟨5, _⟩ => ⟨S2x12x2048x2048, .f32⟩
  | .hbm, ⟨6, _⟩ => ⟨S2x12x2048x2048, .f32⟩
  | .hbm, ⟨7, _⟩ => ⟨S_, .f32⟩
  | .hbm, ⟨8, _⟩ => ⟨S2x12x2048x2048, .f32⟩
  | .hbm, ⟨9, _⟩ => ⟨S2x12x2048x2048, .i1⟩
  | .hbm, ⟨10, _⟩ => ⟨S_, .f32⟩
  | .hbm, ⟨11, _⟩ => ⟨S_, .f32⟩
  | .hbm, ⟨12, _⟩ => ⟨S2x12x2048x2048, .f32⟩
  | .hbm, ⟨13, _⟩ => ⟨S2x12x2048x2048, .f32⟩
  | .hbm, ⟨14, _⟩ => ⟨S2x12x2048x2048, .f32⟩
  | .hbm, ⟨15, _⟩ => ⟨S_, .f32⟩
  | .hbm, ⟨16, _⟩ => ⟨S2x12x2048, .f32⟩
  | .hbm, ⟨17, _⟩ => ⟨S2x12x2048x1, .f32⟩
  | .hbm, ⟨18, _⟩ => ⟨S_, .f32⟩
  | .hbm, ⟨19, _⟩ => ⟨S2x12x2048x1, .f32⟩
  | .hbm, ⟨20, _⟩ => ⟨S2x12x2048x1, .f32⟩
  | .hbm, ⟨21, _⟩ => ⟨S2x12x2048x2048, .f32⟩
  | .hbm, ⟨22, _⟩ => ⟨S2x12x2048x2048, .f32⟩
  | .hbm, ⟨23, _⟩ => ⟨S2x12x2048x64, .f32⟩
  | _, _ => ⟨S2x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S2x12x2048x2048 : S_.BroadcastsInDim S2x12x2048x2048 (![] : Fin 0 → Fin S2x12x2048x2048.rank)
  reducesTo_S2x12x2048x2048_S2x12x2048_d3 : S2x12x2048x2048.ReducesTo [3] S2x12x2048
  h_S_ : 0 < S_.numel
  bcast_S2x12x2048_S2x12x2048x1_0_1_2 : S2x12x2048.BroadcastsInDim S2x12x2048x1 (![0, 1, 2] : Fin 3 → Fin S2x12x2048x1.rank)
  bcast_S_S2x12x2048x1 : S_.BroadcastsInDim S2x12x2048x1 (![] : Fin 0 → Fin S2x12x2048x1.rank)
  bcast_S2x12x2048x1_S2x12x2048x2048_0_1_2_3 : S2x12x2048x1.BroadcastsInDim S2x12x2048x2048 (![0, 1, 2, 3] : Fin 4 → Fin S2x12x2048x2048.rank)
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.Spec.lean ====
/-
  Thresholded-softmax attention, one query row at a time, over the extended reals.

  For a query row `qr` (64 numbers), a key table `Kb` and a value table `Vb` (2048 rows of 64 numbers each):
  the score of key `k` is the inner product of `qr` with row `k` of `Kb`; the score is scaled by 1/8, a scaled
  score that is not negative is replaced by -∞, and the weight of key `k` is the exponential of the result (so a
  masked key weighs 0); the attention paid to key `k` is its weight divided by the sum of all 2048 weights plus the
  f32 number nearest 1e-8; the context is the attention-weighted sum of the rows of `Vb`.

  Both programs compute exactly these numbers at every index, in the same order of operations, so no law of
  arithmetic beyond `0 + x = x` is needed to compare them and finiteness of the inputs is never used. The four float
  literals (1/8, 0, -∞, 1e-8) are kept as their bit patterns and never evaluated: the same word stands on both sides.

  The whole arrays: with the batch and head axes merged (24 = 2 · 12 slabs) the queries, keys and values are
  [24, 2048, 64] arrays and slab `b` of the attention is the row-wise attention of slab `b` of the queries against slab
  `b` of the keys; with the two axes apart the same holds slab (b, h) by slab (b, h).
-/
import Idealize.ShloMosaic.PureOps.Ideal
import Idealize.ShloMosaic.Lib.ValueIdx

noncomputable section

namespace Cert.Attention

open Idealize.ShloMosaic Idealize.ShloMosaic.ValueIdx

/-- The weight of a raw score: scale by 1/8, send a non-negative result to -∞, exponentiate. -/
def wt (s : EReal) : EReal :=
  Ideal.exp (Scalar.select (Ideal.cmp .oge (s * Ideal.ofBits .f32 0x3E000000#32) (Ideal.ofBits .f32 0x00000000#32))
    (Ideal.ofBits .f32 0xFF800000#32) (s * Ideal.ofBits .f32 0x3E000000#32))

/-- A weight over the row's total weight plus the f32 number nearest 1e-8. -/
def nrm (e l : EReal) : EReal := Ideal.div e (l + Ideal.ofBits .f32 0x322BCC77#32)

/-- The raw score of key `k` for the query row `qr`: their inner product. -/
def score (qr : Fin 64 → EReal) (Kb : Fin 2048 → Fin 64 → EReal) (k : Fin 2048) : EReal :=
  ∑ d : Fin 64, qr d * Kb k d

/-- The attention the query row `qr` pays to key `k`. -/
def attnRow (qr : Fin 64 → EReal) (Kb : Fin 2048 → Fin 64 → EReal) (k : Fin 2048) : EReal :=
  nrm (wt (score qr Kb k)) (∑ k' : Fin 2048, wt (score qr Kb k'))

/-- Coordinate `d` of the context of the query row `qr`: the attention-weighted sum of the values' column `d`. -/
def ctxRow (qr : Fin 64 → EReal) (Kb Vb : Fin 2048 → Fin 64 → EReal) (d : Fin 64) : EReal :=
  ∑ k : Fin 2048, attnRow qr Kb k * Vb k d

/-! ## The whole arrays, batch and head merged into 24 slabs -/

/-- Row `q` of slab `b` of a [24, 2048, 64] array. -/
def row3 (X : (⟨3, ![24, 2048, 64]⟩ : Shape).Idx → EReal) (b : Fin 24) (q : Fin 2048) : Fin 64 → EReal :=
  fun d => X (ix3 b q d)

/-- The attention array: entry (b, q, k) is what row q of slab b of the queries pays to key k of slab b of the keys. -/
def attn3 (Qr Kr : (⟨3, ![24, 2048, 64]⟩ : Shape).Idx → EReal) : (⟨3, ![24, 2048, 2048]⟩ : Shape).Idx → EReal :=
  fun i => attnRow (row3 Qr (i 0) (i 1)) (row3 Kr (i 0)) (i 2)

/-- The context array: entry (b, q, d). -/
def ctx3 (Qr Kr Vr : (⟨3, ![24, 2048, 64]⟩ : Shape).Idx → EReal) : (⟨3, ![24, 2048, 64]⟩ : Shape).Idx → EReal :=
  fun i => ctxRow (row3 Qr (i 0) (i 1)) (row3 Kr (i 0)) (row3 Vr (i 0)) (i 2)

/-! ## The whole arrays, batch (2) and head (12) apart -/

/-- Row `q` of slab (b, h) of a [2, 12, 2048, 64] array. -/
def row4 (X : (⟨4, ![2, 12, 2048, 64]⟩ : Shape).Idx → EReal) (b : Fin 2) (h : Fin 12) (q : Fin 2048) : Fin 64 → EReal :=
  fun d => X (ix4 b h q d)

/-- The attention array: entry (b, h, q, k). -/
def attn4 (Q K : (⟨4, ![2, 12, 2048, 64]⟩ : Shape).Idx → EReal) : (⟨4, ![2, 12, 2048, 2048]⟩ : Shape).Idx → EReal :=
  fun i => attnRow (row4 Q (i 0) (i 1) (i 2)) (row4 K (i 0) (i 1)) (i 3)

/-- The context array: entry (b, h, q, d). -/
def ctx4 (Q K V : (⟨4, ![2, 12, 2048, 64]⟩ : Shape).Idx → EReal) : (⟨4, ![2, 12, 2048, 64]⟩ : Shape).Idx → EReal :=
  fun i => ctxRow (row4 Q (i 0) (i 1) (i 2)) (row4 K (i 0) (i 1)) (row4 V (i 0) (i 1)) (i 3)

end Cert.Attention

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibMatmulNT.lean ====
/-
  A matrix product whose two operands are both contracted along their second axis, accumulated into zero, read at
  one entry.

  Over the extended reals the product of an A by K matrix l with a B by K matrix r, each row of r contracted against
  each row of l, has at entry (p, q) the sum over k of l (p, k) r (q, k): the accumulator is zero, and the contraction
  index of a product with one contracted axis is that axis' coordinate. In particular entry (p, q) reads r only in its
  row q. The lemma is stated for any dimension record whose operand indices are (row, contraction) on the left and
  (column, contraction) on the right, which the four coordinate hypotheses say.
-/
import Idealize.ShloMosaic.PureOps.Ideal.Laws
import Idealize.ShloMosaic.Lib.ValueIdx

noncomputable section

namespace Cert.LibMatmulNT

open Idealize.ShloMosaic Idealize.ShloMosaic.ValueIdx

/-- Entry (p, q) of a product of an A by K with a B by K matrix, contracted along K into the zero accumulator, is the
    sum over K of the products of row p of the left with row q of the right. -/
theorem matmul_zero_nt_ix2 {A K B : ℕ} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (i (1 : Fin 2)).val)
    (hr1 : ∀ i q, (d.rhsIdx i q (1 : Fin 2)).val = (q ⟨0, by omega⟩).val)
    (prec : Option ContractPrecision)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.LibMatmulNT

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  What one grid point computes, read entry by entry.

  A point holds a block of 256 query rows and its slab's 2048 key rows and 2048 value rows. Its first product has at
  (p, k) the inner product of query row p with key row k; scaling, comparing with zero, selecting -∞ and
  exponentiating act entry by entry and give the weight of key k for row p; the sum along each row, kept as a column
  and spread back over the row, is row p's total weight, so the quotient at (p, k) is the attention row p pays to key
  k; the second product has at (p, d) the sum over the keys of that attention times value (k, d). Rounding a matrix
  operand to a shorter float format is the identity over the extended reals, the accumulators are zero, and the unit
  axis a block carries in front is dropped on the way in and put back on the way out. So the two stored values are,
  entry by entry, the attention and the context of the block's query rows against the slab's keys and values.
-/
import proofs.«176085_j44272522887183_1_alg».proof.Proof.Gen.KernelIdeal.Skeleton
import proofs.«176085_j44272522887183_1_alg».proof.Proof.Spec
import proofs.«176085_j44272522887183_1_alg».proof.Proof.LibMatmul
import proofs.«176085_j44272522887183_1_alg».proof.Proof.LibMatmulNT
import proofs.«176085_j44272522887183_1_alg».proof.Proof.LibKeepdims
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Attention

/-- The block of raw scores: entry (p, q) of the product of the 256 query rows with the 2048 key rows, both
    contracted along their 64 columns, is the inner product of query row p with key row q. -/
theorem scores_apply (l : FVec Ideal S256x64 .bf16) (r : FVec Ideal S2048x64 .bf16) (p : Fin 256) (q : Fin 2048) :
    matmul dot_S256x64_S2048x64_S256x2048_1_1_0_0_n_n none l r (constant (F := Ideal) S256x2048 .f32 0x00000000#32) (ix2 p q)
      = ∑ d : Fin 64, l (ix2 p d) * r (ix2 q d) :=
  Cert.LibMatmulNT.matmul_zero_nt_ix2 dot_S256x64_S2048x64_S256x2048_1_1_0_0_n_n rfl rfl
    (fun i c => by
      unfold DotDims.lhsIdx
      rw [dif_neg (show ¬(0 : Fin S256x64.rank) ∈ dot_S256x64_S2048x64_S256x2048_1_1_0_0_n_n.lhsBatch by decide),
        dif_pos (show (0 : Fin S256x64.rank) ∈ dot_S256x64_S2048x64_S256x2048_1_1_0_0_n_n.lhsNonContracting by decide)]
      rfl)
    (fun i c => dot_S256x64_S2048x64_S256x2048_1_1_0_0_n_n.lhsIdx_val_of_single rfl i c)
    (fun i c => by
      unfold DotDims.rhsIdx
      rw [dif_neg (show ¬(0 : Fin S2048x64.rank) ∈ dot_S256x64_S2048x64_S256x2048_1_1_0_0_n_n.rhsBatch by decide),
        dif_pos (show (0 : Fin S2048x64.rank) ∈ dot_S256x64_S2048x64_S256x2048_1_1_0_0_n_n.rhsNonContracting by decide)]
      rfl)
    (fun i c => dot_S256x64_S2048x64_S256x2048_1_1_0_0_n_n.rhsIdx_val_of_single rfl i c)
    none l r p q

/-- The block of contexts: entry (p, d) of the product of the 256 × 2048 attention block with the 2048 × 64 values
    is the sum over the keys of attention (p, k) times value (k, d). -/
theorem weighted_apply (l : FVec Ideal S256x2048 .bf16) (r : FVec Ideal S2048x64 .bf16) (p : Fin 256) (d : Fin 64) :
    matmul dot_S256x2048_S2048x64_S256x64_1_0_0_1_n_n none l r (constant (F := Ideal) S256x64 .f32 0x00000000#32) (ix2 p d)
      = ∑ k : Fin 2048, l (ix2 p k) * r (ix2 k d) :=
  Cert.LibMatmul.matmul_zero_ix2 dot_S256x2048_S2048x64_S256x64_1_0_0_1_n_n rfl rfl
    (fun i c => by
      unfold DotDims.lhsIdx
      rw [dif_neg (show ¬(0 : Fin S256x2048.rank) ∈ dot_S256x2048_S2048x64_S256x64_1_0_0_1_n_n.lhsBatch by decide),
        dif_pos (show (0 : Fin S256x2048.rank) ∈ dot_S256x2048_S2048x64_S256x64_1_0_0_1_n_n.lhsNonContracting by decide)]
      rfl)
    (fun i c => dot_S256x2048_S2048x64_S256x64_1_0_0_1_n_n.lhsIdx_val_of_single rfl i c)
    (fun i c => dot_S256x2048_S2048x64_S256x64_1_0_0_1_n_n.rhsIdx_val_of_single rfl i c)
    (fun i c => by
      unfold DotDims.rhsIdx
      rw [dif_neg (show ¬(1 : Fin S2048x64.rank) ∈ dot_S256x2048_S2048x64_S256x64_1_0_0_1_n_n.rhsBatch by decide),
        dif_pos (show (1 : Fin S2048x64.rank) ∈ dot_S256x2048_S2048x64_S256x64_1_0_0_1_n_n.rhsNonContracting by decide)]
      rfl)
    none l r p d

/-- The row totals: entry p of the sum of a 256 × 2048 block along its rows is the sum of row p. -/
theorem rowsum_apply (e : FVec Ideal S256x2048 .f32) (p : Fin 256) :
    multiReduction (F := Ideal) .add [1] S256 e 0x00000000#32 reduces_S256x2048_S256 (.inl rfl) rfl (ix1 p)
      = ∑ k : Fin 2048, e (ix2 p k) := by
  refine (Ideal.multiReduction_add_single e 0x00000000#32 reduces_S256x2048_S256 (.inl rfl) rfl (ix1 p)).trans ?_
  refine Finset.sum_congr rfl fun k _ => congrArg e ?_
  funext a; apply Fin.ext
  match a with
  | ⟨0, _⟩ => rfl
  | ⟨1, _⟩ => rfl

/-! ## The body's arithmetic in three stages -/

/-- The block of raw scores of the point's 256 query rows against the slab's 2048 key rows. -/
def rawScores (x0 : Vec Ideal S1x256x64 .f32) (x1 : Vec Ideal S1x2048x64 .f32) : FVec Ideal S256x2048 .f32 :=
  matmul dot_S256x64_S2048x64_S256x2048_1_1_0_0_n_n none
    (truncf .bf16 (shapeCast S256x64 x0 shapeCasts_S1x256x64_S256x64) bitsLt_bf16_f32)
    (truncf .bf16 (shapeCast S2048x64 x1 shapeCasts_S1x2048x64_S2048x64) bitsLt_bf16_f32)
    (constant S256x2048 .f32 0x00000000#32)

/-- The block of weights of a block of raw scores: scaled, masked where not negative, exponentiated, entry by entry. -/
def weights (s : FVec Ideal S256x2048 .f32) : FVec Ideal S256x2048 .f32 :=
  exp (select
    (cmpf .oge (mulf s (broadcast S256x2048 (FloatOps.ofBits .f32 0x3E000000#32))) (broadcast S256x2048 (FloatOps.ofBits .f32 0x00000000#32)))
    (broadcast S256x2048 (FloatOps.ofBits .f32 0xFF800000#32))
    (mulf s (broadcast S256x2048 (FloatOps.ofBits .f32 0x3E000000#32))))

/-- A block of weights with every row divided by its total plus the small constant. -/
def normalised (e : FVec Ideal S256x2048 .f32) : FVec Ideal S256x2048 .f32 :=
  divf e (broadcastTo S256x2048
    (addf (shapeCast S256x1 (multiReduction .add [1] S256 e 0x00000000#32 reduces_S256x2048_S256 (.inl rfl) rfl) shapeCasts_S256_S256x1)
      (broadcast S256x1 (FloatOps.ofBits .f32 0x322BCC77#32)))
    broadcasts_S256x1_S256x2048)

/-- The attention block the body computes is the three stages composed. -/
theorem pay1_stages (x0 : Vec Ideal S1x256x64 .f32) (x1 : Vec Ideal S1x2048x64 .f32) :
    k0_pay1 (F := Ideal) x0 x1 = normalised (weights (rawScores x0 x1)) := rfl

/-- A weight is the weight function of the raw score at the same entry. -/
theorem weights_apply (s : FVec Ideal S256x2048 .f32) (i : S256x2048.Idx) : weights s i = wt (s i) := rfl

/-- Raw score (p, k): the inner product of the block's query row p with the slab's key row k (rounding the operands
    to a shorter float format changes nothing over the extended reals, and the blocks' unit axis is dropped). -/
theorem rawScores_apply (x0 : Vec Ideal S1x256x64 .f32) (x1 : Vec Ideal S1x2048x64 .f32) (p : Fin 256) (k : Fin 2048) :
    rawScores x0 x1 (ix2 p k) = score (fun d => x0 (ix3 (0 : Fin 1) p d)) (fun k d => x1 (ix3 (0 : Fin 1) k d)) k := by
  refine (scores_apply _ _ p k).trans (Finset.sum_congr rfl fun d _ => ?_)
  show shapeCast S256x64 x0 shapeCasts_S1x256x64_S256x64 (ix2 p d) * shapeCast S2048x64 x1 shapeCasts_S1x2048x64_S2048x64 (ix2 k d) = _
  rw [shapeCast_1ab_ab_apply, shapeCast_1ab_ab_apply]

/-- Normalised weight (p, q): the weight over row p's total plus the small constant. -/
theorem normalised_apply (e : FVec Ideal S256x2048 .f32) (p : Fin 256) (q : Fin 2048) :
    normalised e (ix2 p q) = nrm (e (ix2 p q)) (∑ k : Fin 2048, e (ix2 p k)) := by
  unfold normalised
  rw [divf_apply, Cert.LibKeepdims.broadcastTo_a1_ab_apply, addf_apply, Cert.LibKeepdims.shapeCast_a_a1_apply, rowsum_apply]
  rfl

/-! ## The two stored values at an entry -/

/-- Entry (p, q) of the attention block: what the block's query row p pays to the slab's key q. -/
theorem pay1_apply (x0 : Vec Ideal S1x256x64 .f32) (x1 : Vec Ideal S1x2048x64 .f32) (p : Fin 256) (q : Fin 2048) :
    k0_pay1 (F := Ideal) x0 x1 (ix2 p q)
      = attnRow (fun d => x0 (ix3 (0 : Fin 1) p d)) (fun k d => x1 (ix3 (0 : Fin 1) k d)) q := by
  have hw : ∀ k : Fin 2048, weights (rawScores x0 x1) (ix2 p k)
      = wt (score (fun d => x0 (ix3 (0 : Fin 1) p d)) (fun k d => x1 (ix3 (0 : Fin 1) k d)) k) :=
    fun k => (weights_apply _ _).trans (congrArg wt (rawScores_apply x0 x1 p k))
  rw [pay1_stages, normalised_apply]
  unfold attnRow
  exact congrArg₂ nrm (hw q) (Finset.sum_congr rfl fun k _ => hw k)

/-- The value stored to the attention window is the attention block with a unit axis in front. -/
theorem pay2_apply (x0 : Vec Ideal S1x256x64 .f32) (x1 : Vec Ideal S1x2048x64 .f32) (u : Fin 1) (p : Fin 256) (q : Fin 2048) :
    k0_pay2 (F := Ideal) x0 x1 (ix3 u p q)
      = attnRow (fun d => x0 (ix3 (0 : Fin 1) p d)) (fun k d => x1 (ix3 (0 : Fin 1) k d)) q := by
  show shapeCast S1x256x2048 (k0_pay1 (F := Ideal) x0 x1) shapeCasts_S256x2048_S1x256x2048 (ix3 u p q) = _
  rw [shapeCast_ab_1ab_apply]
  exact pay1_apply x0 x1 p q

/-- The value stored to the context window, at (p, d): the attention-weighted sum of column d of the slab's values. -/
theorem pay3_apply (x0 : Vec Ideal S1x256x64 .f32) (x1 x2 : Vec Ideal S1x2048x64 .f32) (u : Fin 1) (p : Fin 256) (d : Fin 64) :
    k0_pay3 (F := Ideal) x0 x1 x2 (ix3 u p d)
      = ctxRow (fun d => x0 (ix3 (0 : Fin 1) p d)) (fun k d => x1 (ix3 (0 : Fin 1) k d)) (fun k d => x2 (ix3 (0 : Fin 1) k d)) d := by
  show shapeCast S1x256x64
      (matmul dot_S256x2048_S2048x64_S256x64_1_0_0_1_n_n none
        (truncf .bf16 (k0_pay1 (F := Ideal) x0 x1) bitsLt_bf16_f32)
        (truncf .bf16 (shapeCast S2048x64 x2 shapeCasts_S1x2048x64_S2048x64) bitsLt_bf16_f32)
        (constant S256x64 .f32 0x00000000#32))
      shapeCasts_S256x64_S1x256x64 (ix3 u p d) = _
  rw [shapeCast_ab_1ab_apply, weighted_apply]
  unfold ctxRow
  refine Finset.sum_congr rfl fun k _ => ?_
  show k0_pay1 (F := Ideal) x0 x1 (ix2 p k) * shapeCast S2048x64 x2 shapeCasts_S1x2048x64_S2048x64 (ix2 k d) = _
  rw [shapeCast_1ab_ab_apply, pay1_apply]

end Cert.KernelIdeal.Payload

end
-- ==== Proof.Blocks.lean ====
/-
  From one grid point's blocks to the whole arrays.

  The grid has 24 · 8 points: point (b, qi) takes rows 256·qi … 256·qi + 255 of slab b of the queries, the whole of
  slab b of the keys and of the values, and writes rows 256·qi … 256·qi + 255 of slab b of the context and of the
  attention. Since the attention of a query row depends only on that row and on its own slab's keys (and the context
  also on its slab's values), what a point writes is exactly the corresponding block of the whole-array functions
  `attn3` and `ctx3` of the arrays the region finds; the 192 blocks tile each output array, so after the run each
  output array is that function everywhere.
-/
import proofs.«176085_j44272522887183_1_alg».proof.Proof.Gen.KernelIdeal.Frame
import proofs.«176085_j44272522887183_1_alg».proof.Proof.Payload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Attention Cert.KernelIdeal.Payload

variable (m : (ℓ : Loc nD τ sig) → Buf (Elt Ideal) ℓ)

theorem zero_offsets : (![0, 0, 0] : Fin 3 → Nat) = fun _ => 0 := funext fun a => by fin_cases a <;> rfl

/-! ## The index maps, decided once over the grid -/

/-- At every point the query window, the context window and the attention window sit at the same (slab, row block),
    the key and value windows at the same slab and row block 0, and no window moves along its last axis. -/
theorem index_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (2 : Fin 3) = 0 ∧ win0_4.index t (0 : Fin 3) < 24 ∧ win0_4.index t (1 : Fin 3) < 8 :=
  (by decide +kernel : ∀ t : Fin grid0.N, _)

/-- Every (slab, row block) is some point's. -/
theorem index_onto : ∀ (b : Fin 24) (qi : Fin 8), ∃ t : Fin cfg0.N, win0_4.index t = ![b.val, qi.val, 0] :=
  (by decide +kernel : ∀ (b : Fin 24) (qi : Fin 8), ∃ t : Fin grid0.N, win0_4.index t = ![b.val, qi.val, 0])

/-! ## An input block's entry is an entry of its array -/

/-- Entry y of the point's query block is the queries' entry at block index × block size + y, axis by axis. -/
theorem read_q (c : Dev nD) (t : Fin cfg0.N) (y : S1x256x64.Idx) (i : S24x2048x64.Idx)
    (h0 : (i 0).val = win0_0.index t (0 : Fin 3) * 1 + 1 * (y 0).val)
    (h1 : (i 1).val = win0_0.index t (1 : Fin 3) * 256 + 1 * (y 1).val)
    (h2 : (i 2).val = win0_0.index t (2 : Fin 3) * 64 + 1 * (y 2).val) :
    iblk m c 0 t y = V m c main_v0 i := by
  show V m c main_v0 (((cfg0.win 0).blk t).view.emb y) = V m c main_v0 i
  refine congrArg _ (funext fun a => Fin.ext ?_)
  match a with
  | ⟨0, _⟩ => exact h0.symm
  | ⟨1, _⟩ => exact h1.symm
  | ⟨2, _⟩ => exact h2.symm

/-- The same for the key block. -/
theorem read_k (c : Dev nD) (t : Fin cfg0.N) (y : S1x2048x64.Idx) (i : S24x2048x64.Idx)
    (h0 : (i 0).val = win0_1.index t (0 : Fin 3) * 1 + 1 * (y 0).val)
    (h1 : (i 1).val = win0_1.index t (1 : Fin 3) * 2048 + 1 * (y 1).val)
    (h2 : (i 2).val = win0_1.index t (2 : Fin 3) * 64 + 1 * (y 2).val) :
    iblk m c 1 t y = V m c main_v1 i := by
  show V m c main_v1 (((cfg0.win 1).blk t).view.emb y) = V m c main_v1 i
  refine congrArg _ (funext fun a => Fin.ext ?_)
  match a with
  | ⟨0, _⟩ => exact h0.symm
  | ⟨1, _⟩ => exact h1.symm
  | ⟨2, _⟩ => exact h2.symm

/-- The same for the value block. -/
theorem read_v (c : Dev nD) (t : Fin cfg0.N) (y : S1x2048x64.Idx) (i : S24x2048x64.Idx)
    (h0 : (i 0).val = win0_2.index t (0 : Fin 3) * 1 + 1 * (y 0).val)
    (h1 : (i 1).val = win0_2.index t (1 : Fin 3) * 2048 + 1 * (y 1).val)
    (h2 : (i 2).val = win0_2.index t (2 : Fin 3) * 64 + 1 * (y 2).val) :
    iblk m c 2 t y = V m c main_v2 i := by
  show V m c main_v2 (((cfg0.win 2).blk t).view.emb y) = V m c main_v2 i
  refine congrArg _ (funext fun a => Fin.ext ?_)
  match a with
  | ⟨0, _⟩ => exact h0.symm
  | ⟨1, _⟩ => exact h1.symm
  | ⟨2, _⟩ => exact h2.symm

/-! ## What a point writes back -/

/-- What a point writes back to the attention array is its block of `attn3` of the queries and keys the region finds. -/
theorem flushed_attn (c : Dev nD) (t : Fin cfg0.N) :
    (dats m 0 c).flushed 4 t
      = ((cfg0.win 4).blk t).view.read (Elt Ideal) (attn3 (V m c main_v0) (V m c main_v1)) := by
  show (cfg0.win 4).cut (grid0.coords t) ((dats m 0 c).after 4 t) = _
  rw [after0_4]
  unfold out0_4
  rw [View.canon_unit_zero zero_offsets]
  simp only [View.ld_unit_zero (S := S1x256x64) zero_offsets, View.ld_unit_zero (S := S1x2048x64) zero_offsets]
  obtain ⟨e00, e01, e02, e10, e11, e12, e20, e21, e22, e30, e31, e32, e42, b0, b1⟩ := index_facts t
  refine funext fun (j : S1x256x2048.Idx) => ?_
  obtain ⟨u, p, q, rfl⟩ : ∃ (u : Fin 1) (p : Fin 256) (q : Fin 2048), j = ix3 u p q := ⟨j 0, j 1, j 2, eq_ix3 j⟩
  have hu : u.val = 0 := by omega
  show k0_pay2 (F := Ideal) (iblk m c 0 t) (iblk m c 1 t) (ix3 u p q)
      = attn3 (V m c main_v0) (V m c main_v1) (((cfg0.win 4).blk t).view.emb (ix3 u p q))
  refine (pay2_apply (iblk m c 0 t) (iblk m c 1 t) u p q).trans ?_
  unfold attn3 row3
  refine congr (congr (congrArg attnRow (funext fun d => ?_)) (funext fun k => funext fun d => ?_)) (Fin.ext ?_)
  · refine read_q m c t _ _ ?_ ?_ ?_
    · show win0_4.index t (0 : Fin 3) * 1 + 1 * u.val = win0_0.index t (0 : Fin 3) * 1 + 1 * 0; omega
    · show win0_4.index t (1 : Fin 3) * 256 + 1 * p.val = win0_0.index t (1 : Fin 3) * 256 + 1 * p.val; omega
    · show d.val = win0_0.index t (2 : Fin 3) * 64 + 1 * d.val; omega
  · refine read_k m c t _ _ ?_ ?_ ?_
    · show win0_4.index t (0 : Fin 3) * 1 + 1 * u.val = win0_1.index t (0 : Fin 3) * 1 + 1 * 0; omega
    · show k.val = win0_1.index t (1 : Fin 3) * 2048 + 1 * k.val; omega
    · show d.val = win0_1.index t (2 : Fin 3) * 64 + 1 * d.val; omega
  · show q.val = win0_4.index t (2 : Fin 3) * 2048 + 1 * q.val; omega

/-- What a point writes back to the context array is its block of `ctx3` of the queries, keys and values the region finds. -/
theorem flushed_ctx (c : Dev nD) (t : Fin cfg0.N) :
    (dats m 0 c).flushed 3 t
      = ((cfg0.win 3).blk t).view.read (Elt Ideal) (ctx3 (V m c main_v0) (V m c main_v1) (V m c main_v2)) := by
  show (cfg0.win 3).cut (grid0.coords t) ((dats m 0 c).after 3 t) = _
  rw [after0_3]
  unfold out0_3
  rw [View.canon_unit_zero zero_offsets]
  simp only [View.ld_unit_zero (S := S1x256x64) zero_offsets, View.ld_unit_zero (S := S1x2048x64) zero_offsets]
  obtain ⟨e00, e01, e02, e10, e11, e12, e20, e21, e22, e30, e31, e32, e42, b0, b1⟩ := index_facts t
  refine funext fun (j : S1x256x64.Idx) => ?_
  obtain ⟨u, p, d, rfl⟩ : ∃ (u : Fin 1) (p : Fin 256) (d : Fin 64), j = ix3 u p d := ⟨j 0, j 1, j 2, eq_ix3 j⟩
  have hu : u.val = 0 := by omega
  show k0_pay3 (F := Ideal) (iblk m c 0 t) (iblk m c 1 t) (iblk m c 2 t) (ix3 u p d)
      = ctx3 (V m c main_v0) (V m c main_v1) (V m c main_v2) (((cfg0.win 3).blk t).view.emb (ix3 u p d))
  refine (pay3_apply (iblk m c 0 t) (iblk m c 1 t) (iblk m c 2 t) u p d).trans ?_
  unfold ctx3 row3
  refine congr (congr (congr (congrArg ctxRow (funext fun d' => ?_)) (funext fun k => funext fun d' => ?_))
    (funext fun k => funext fun d' => ?_)) (Fin.ext ?_)
  · refine read_q m c t _ _ ?_ ?_ ?_
    · show win0_3.index t (0 : Fin 3) * 1 + 1 * u.val = win0_0.index t (0 : Fin 3) * 1 + 1 * 0; omega
    · show win0_3.index t (1 : Fin 3) * 256 + 1 * p.val = win0_0.index t (1 : Fin 3) * 256 + 1 * p.val; omega
    · show d'.val = win0_0.index t (2 : Fin 3) * 64 + 1 * d'.val; omega
  · refine read_k m c t _ _ ?_ ?_ ?_
    · show win0_3.index t (0 : Fin 3) * 1 + 1 * u.val = win0_1.index t (0 : Fin 3) * 1 + 1 * 0; omega
    · show k.val = win0_1.index t (1 : Fin 3) * 2048 + 1 * k.val; omega
    · show d'.val = win0_1.index t (2 : Fin 3) * 64 + 1 * d'.val; omega
  · refine read_v m c t _ _ ?_ ?_ ?_
    · show win0_3.index t (0 : Fin 3) * 1 + 1 * u.val = win0_2.index t (0 : Fin 3) * 1 + 1 * 0; omega
    · show k.val = win0_2.index t (1 : Fin 3) * 2048 + 1 * k.val; omega
    · show d'.val = win0_2.index t (2 : Fin 3) * 64 + 1 * d'.val; omega
  · show d.val = win0_3.index t (2 : Fin 3) * 64 + 1 * d.val; omega

/-! ## The blocks tile the output arrays -/

/-- An index of the attention array is in a point's block iff each coordinate is in the block's range on its axis. -/
theorem mem_blk_attn (t : Fin cfg0.N) (i : S24x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v3_1).slice (win0_4.rect t)).set ↔ _
  rw [View.set_slice_whole, Rect.mem_set_unit]
  exact Iff.rfl

/-- The same for the context array. -/
theorem mem_blk_ctx (t : Fin cfg0.N) (i : S24x2048x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v3_0).slice (win0_3.rect t)).set ↔ _
  rw [View.set_slice_whole, Rect.mem_set_unit]
  exact Iff.rfl

/-- Every entry (b, r, k) of the attention array is in the block of the point at slab b, row block r / 256. -/
theorem cover_attn (i : S24x2048x2048.Idx) :
    ∃ t : Fin cfg0.N, (cfg0.win 4).flush t = true ∧ i ∈ ((cfg0.win 4).blk t).view.set := by
  have hi0 : (i 0).val < 24 := (i 0).isLt
  have hi1 : (i 1).val < 2048 := (i 1).isLt
  have hi2 : (i 2).val < 2048 := (i 2).isLt
  obtain ⟨t, ht⟩ := index_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk_attn]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- Every entry (b, r, d) of the context array is in the block of the point at slab b, row block r / 256. -/
theorem cover_ctx (i : S24x2048x64.Idx) :
    ∃ t : Fin cfg0.N, (cfg0.win 3).flush t = true ∧ i ∈ ((cfg0.win 3).blk t).view.set := by
  have hi0 : (i 0).val < 24 := (i 0).isLt
  have hi1 : (i 1).val < 2048 := (i 1).isLt
  have hi2 : (i 2).val < 64 := (i 2).isLt
  obtain ⟨t, ht⟩ := index_onto ⟨(i 0).val, hi0⟩ ⟨(i 1).val / 256, by omega⟩
  obtain ⟨e00, e01, e02, e10, e11, e12, e20, e21, e22, e30, e31, e32, e42, b0, b1⟩ := index_facts t
  have q0 : win0_4.index t (0 : Fin 3) = (i 0).val := congrFun ht 0
  have q1 : win0_4.index t (1 : Fin 3) = (i 1).val / 256 := congrFun ht 1
  refine ⟨t, flush0_3 t, ?_⟩
  rw [mem_blk_ctx]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-! ## The output arrays after the region -/

/-- After the region the attention array is `attn3` of the queries and keys the region found. -/
theorem final_attn (c : Dev nD) :
    (dats m 0 c).arrAt 4 cfg0.N = attn3 (V m c main_v0) (V m c main_v1) :=
  (dats m 0 c).arrAt_eq_of_cover 4 _ (fun t _ => flushed_attn m c t) cover_attn

/-- After the region the context array is `ctx3` of the queries, keys and values the region found. -/
theorem final_ctx (c : Dev nD) :
    (dats m 0 c).arrAt 3 cfg0.N = ctx3 (V m c main_v0) (V m c main_v1) (V m c main_v2) :=
  (dats m 0 c).arrAt_eq_of_cover 3 _ (fun t _ => flushed_ctx m c t) cover_ctx

end Cert.KernelIdeal.Blocks

end
-- ==== Proof.LibMergeAxes.lean ====
/-
  Two leading axes merged into one, or one leading axis split into two, by a change of shape: read at an index.

  In row-major order the entry (i, j, k, l) of an a × b × c × d array and the entry (i·b + j, k, l) of an
  (a·b) × c × d array sit at the same position, ((i·b + j)·c + k)·d + l. So a cast that merges the first two axes
  reads, at (i·b + j, k, l), the operand at (i, j, k, l); and a cast that splits the first axis reads, at (i, j, k, l),
  the operand at (i·b + j, k, l). The merged coordinate is passed with its defining equation, so the lemmas apply
  to any way it was obtained; the merged extent `n` is whatever the shapes say (the cast's own side condition makes
  it a·b).
-/
import Idealize.ShloMosaic.Lib.Pipeline.Value
import Idealize.ShloMosaic.Lib.ValueIdx

namespace Cert.LibMergeAxes

open Idealize.ShloMosaic Idealize.ShloMosaic.ValueIdx

variable {α : Type}

/-- An `[a, b, c, d]` array cast to `[n, c, d]` reads, at `(i·b + j, k, l)`, the operand at `(i, j, k, l)`. -/
theorem shapeCast_abcd_ncd_apply {a b c d n : ℕ} (x : (⟨4, ![a, b, c, d]⟩ : Shape).Idx → α)
    (h : (⟨4, ![a, b, c, d]⟩ : Shape).ShapeCasts ⟨3, ![n, c, d]⟩)
    (i : Fin a) (j : Fin b) (k : Fin c) (l : Fin d) (ij : Fin n) (hij : ij.val = i.val * b + j.val) :
    shapeCast ⟨3, ![n, c, d]⟩ x h (ix3 ij k l) = x (ix4 i j k l) :=
  shapeCast_apply x h _ _ (by
    rw [Shape.rowMajor_val_four, Shape.rowMajor_val_three]
    show ((i.val * b + j.val) * c + k.val) * d + l.val = (ij.val * c + k.val) * d + l.val
    rw [hij])

/-- An `[n, c, d]` array cast to `[a, b, c, d]` reads, at `(i, j, k, l)`, the operand at `(i·b + j, k, l)`. -/
theorem shapeCast_ncd_abcd_apply {a b c d n : ℕ} (x : (⟨3, ![n, c, d]⟩ : Shape).Idx → α)
    (h : (⟨3, ![n, c, d]⟩ : Shape).ShapeCasts ⟨4, ![a, b, c, d]⟩)
    (i : Fin a) (j : Fin b) (k : Fin c) (l : Fin d) (ij : Fin n) (hij : ij.val = i.val * b + j.val) :
    shapeCast ⟨4, ![a, b, c, d]⟩ x h (ix4 i j k l) = x (ix3 ij k l) :=
  shapeCast_apply x h _ _ (by
    rw [Shape.rowMajor_val_four, Shape.rowMajor_val_three]
    show (ij.val * c + k.val) * d + l.val = ((i.val * b + j.val) * c + k.val) * d + l.val
    rw [hij])

end Cert.LibMergeAxes
-- ==== Proof.Merge.lean ====
/-
  Merging batch and head changes nothing.

  Slab 12·b + h of the merged [24, 2048, 64] queries, keys and values is slab (b, h) of the [2, 12, 2048, 64] ones,
  row for row. The attention of a query row depends only on that row and on its own slab's keys, and the context also
  on its slab's values, so the attention and context computed slab by slab on the merged arrays and then split back
  into (b, h) are the attention and context of the arrays as given.
-/
import proofs.«176085_j44272522887183_1_alg».proof.Proof.Spec
import proofs.«176085_j44272522887183_1_alg».proof.Proof.LibMergeAxes

noncomputable section

namespace Cert.Attention

open Idealize.ShloMosaic Idealize.ShloMosaic.ValueIdx

/-- Slab 12·b + h of 24. -/
def slab (b : Fin 2) (h : Fin 12) : Fin 24 := ⟨b.val * 12 + h.val, by omega⟩

/-- Row q of slab 12·b + h of the merged array is row q of slab (b, h) of the array as given. -/
theorem row3_merge (X : (⟨4, ![2, 12, 2048, 64]⟩ : Shape).Idx → EReal)
    (hm : (⟨4, ![2, 12, 2048, 64]⟩ : Shape).ShapeCasts ⟨3, ![24, 2048, 64]⟩) (b : Fin 2) (h : Fin 12) (q : Fin 2048) :
    row3 (shapeCast ⟨3, ![24, 2048, 64]⟩ X hm) (slab b h) q = row4 X b h q :=
  funext fun d => Cert.LibMergeAxes.shapeCast_abcd_ncd_apply X hm b h q d (slab b h) rfl

/-- The attention of the merged arrays, split back, is the attention of the arrays as given. -/
theorem attn_merge (Q K : (⟨4, ![2, 12, 2048, 64]⟩ : Shape).Idx → EReal)
    (hm : (⟨4, ![2, 12, 2048, 64]⟩ : Shape).ShapeCasts ⟨3, ![24, 2048, 64]⟩)
    (hs : (⟨3, ![24, 2048, 2048]⟩ : Shape).ShapeCasts ⟨4, ![2, 12, 2048, 2048]⟩) :
    shapeCast ⟨4, ![2, 12, 2048, 2048]⟩
        (attn3 (shapeCast ⟨3, ![24, 2048, 64]⟩ Q hm) (shapeCast ⟨3, ![24, 2048, 64]⟩ K hm)) hs
      = attn4 Q K := by
  funext i
  obtain ⟨b, h, q, k, rfl⟩ : ∃ (b : Fin 2) (h : Fin 12) (q k : Fin 2048), i = ix4 b h q k := ⟨i 0, i 1, i 2, i 3, eq_ix4 i⟩
  refine (Cert.LibMergeAxes.shapeCast_ncd_abcd_apply _ hs b h q k (slab b h) rfl).trans ?_
  show attnRow (row3 (shapeCast ⟨3, ![24, 2048, 64]⟩ Q hm) (slab b h) q) (row3 (shapeCast ⟨3, ![24, 2048, 64]⟩ K hm) (slab b h)) k
      = attnRow (row4 Q b h q) (row4 K b h) k
  rw [row3_merge, show row3 (shapeCast ⟨3, ![24, 2048, 64]⟩ K hm) (slab b h) = row4 K b h from funext fun q' => row3_merge K hm b h q']

/-- The context of the merged arrays, split back, is the context of the arrays as given. -/
theorem ctx_merge (Q K V : (⟨4, ![2, 12, 2048, 64]⟩ : Shape).Idx → EReal)
    (hm : (⟨4, ![2, 12, 2048, 64]⟩ : Shape).ShapeCasts ⟨3, ![24, 2048, 64]⟩)
    (hs : (⟨3, ![24, 2048, 64]⟩ : Shape).ShapeCasts ⟨4, ![2, 12, 2048, 64]⟩) :
    shapeCast ⟨4, ![2, 12, 2048, 64]⟩
        (ctx3 (shapeCast ⟨3, ![24, 2048, 64]⟩ Q hm) (shapeCast ⟨3, ![24, 2048, 64]⟩ K hm) (shapeCast ⟨3, ![24, 2048, 64]⟩ V hm)) hs
      = ctx4 Q K V := by
  funext i
  obtain ⟨b, h, q, d, rfl⟩ : ∃ (b : Fin 2) (h : Fin 12) (q : Fin 2048) (d : Fin 64), i = ix4 b h q d := ⟨i 0, i 1, i 2, i 3, eq_ix4 i⟩
  refine (Cert.LibMergeAxes.shapeCast_ncd_abcd_apply _ hs b h q d (slab b h) rfl).trans ?_
  show ctxRow (row3 (shapeCast ⟨3, ![24, 2048, 64]⟩ Q hm) (slab b h) q) (row3 (shapeCast ⟨3, ![24, 2048, 64]⟩ K hm) (slab b h))
        (row3 (shapeCast ⟨3, ![24, 2048, 64]⟩ V hm) (slab b h)) d
      = ctxRow (row4 Q b h q) (row4 K b h) (row4 V b h) d
  rw [row3_merge, show row3 (shapeCast ⟨3, ![24, 2048, 64]⟩ K hm) (slab b h) = row4 K b h from funext fun q' => row3_merge K hm b h q',
    show row3 (shapeCast ⟨3, ![24, 2048, 64]⟩ V hm) (slab b h) = row4 V b h from funext fun q' => row3_merge V hm b h q']

end Cert.Attention

end
-- ==== Proof.Whole.lean ====
/-
  The kernel program as a whole: the reshapes around the region.

  Before the region the program merges the batch and head axes of its three arguments, so the arrays the region finds
  are the arguments viewed as [24, 2048, 64]; after the region it splits the first axis of the two output arrays back
  into batch and head. With the arrays after the region known (`attn3` and `ctx3` of what the region found), the
  program's two results are the attention and the context of the arguments as given, and the arguments are untouched.
-/
import proofs.«176085_j44272522887183_1_alg».proof.Proof.Gen.KernelIdeal.Frame
import proofs.«176085_j44272522887183_1_alg».proof.Proof.Blocks
import proofs.«176085_j44272522887183_1_alg».proof.Proof.Merge
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.Attention Cert.KernelIdeal.Blocks

variable (m : (ℓ : Loc nD τ sig) → Buf (Elt Ideal) ℓ) (ρ : Dev nD → PrngReg)

/-! ## What the region finds -/

/-- The queries the region finds are the first argument with batch and head merged. -/
theorem found_q (c : Dev nD) : (V m c main_v0 : S24x2048x64.Idx → EReal)
    = shapeCast S24x2048x64 (m ((c.tc : Thread nD τ).loc main_arg0)) shapeCasts_S2x12x2048x64_S24x2048x64 := by
  show StableHlo.after hostOps0 (fun b => m (c, b)) (Proc.devRef .tc main_v0) = _
  after_results
  rfl

/-- The keys the region finds are the second argument with batch and head merged. -/
theorem found_k (c : Dev nD) : (V m c main_v1 : S24x2048x64.Idx → EReal)
    = shapeCast S24x2048x64 (m ((c.tc : Thread nD τ).loc main_arg1)) shapeCasts_S2x12x2048x64_S24x2048x64 := by
  show StableHlo.after hostOps0 (fun b => m (c, b)) (Proc.devRef .tc main_v1) = _
  after_results
  rfl

/-- The values the region finds are the third argument with batch and head merged. -/
theorem found_v (c : Dev nD) : (V m c main_v2 : S24x2048x64.Idx → EReal)
    = shapeCast S24x2048x64 (m ((c.tc : Thread nD τ).loc main_arg2)) shapeCasts_S2x12x2048x64_S24x2048x64 := by
  show StableHlo.after hostOps0 (fun b => m (c, b)) (Proc.devRef .tc main_v2) = _
  after_results
  rfl

/-! ## The two results -/

/-- The attention result: the attention array after the region with its first axis split, which is the attention of
    the arguments as given. -/
theorem result_attn (c : Dev nD) :
    Pipeline.afterTail₀ cfgs (dats m) 0 (V0 m) [hostOps1] c main_v5
      = attn4 (m ((c.tc : Thread nD τ).loc main_arg0)) (m ((c.tc : Thread nD τ).loc main_arg1)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v3_1)
      = (dats m 0 c).arrAt 4 cfg0.N := Pipeline.withArrays_arr spec0 launch0.win.arr_inj c _ _ 4
  rw [hw, final_attn, found_q, found_k]
  exact attn_merge _ _ _ _

/-- The context result: the context array after the region with its first axis split, which is the context of the
    arguments as given. -/
theorem result_ctx (c : Dev nD) :
    Pipeline.afterTail₀ cfgs (dats m) 0 (V0 m) [hostOps1] c main_v4
      = ctx4 (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3_0)
      = (dats m 0 c).arrAt 3 cfg0.N := Pipeline.withArrays_arr spec0 launch0.win.arr_inj c _ _ 3
  rw [hw, final_ctx, found_q, found_k, found_v]
  exact ctx_merge _ _ _ _ _

/-! ## The run -/

/-- Every weakly fair execution of the kernel program terminates with its first result the context and its second
    the attention of the arguments, and the arguments unchanged. -/
theorem run : θ_run defs (onTc (τ := τ) (main (F := Ideal))) ⟨m, fun _ => 0, ρ⟩ fun r => ∀ c : Dev nD,
      r.2.mem ((c.tc : Thread nD τ).loc main_v4)
        = ctx4 (m ((c.tc : Thread nD τ).loc main_arg0)) (m ((c.tc : Thread nD τ).loc main_arg1)) (m ((c.tc : Thread nD τ).loc main_arg2))
      ∧ r.2.mem ((c.tc : Thread nD τ).loc main_v5)
        = attn4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (result_ctx m c),
      ((h c).2 main_v5 (Pipeline.mem_restRefs_of main_v5 (by decide) (by decide))).trans (result_attn m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefValue.lean ====
/-
  The reference computes the specification.

  Its operations, read one at a time at an index (b, h, q, k): the first contraction is the inner product of query
  row (b, h, q) with key row (b, h, k); scaling, comparing with zero, selecting -∞ and exponentiating are entry by
  entry and give the weight; the sum along the last axis, kept as a unit axis and spread back, is the row's total
  weight (its initial value is the number 0, which adds nothing); dividing gives the attention; the second
  contraction is the attention-weighted sum of the values' rows. Each index the operations read is the index the
  specification reads, coordinate by coordinate.
-/
import proofs.«176085_j44272522887183_1_alg».proof.Proof.Gen.ReferenceIdeal.Read
import proofs.«176085_j44272522887183_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Attention

/-! ## The indices the operations read -/

theorem lidx_scores (b : Fin 2) (h : Fin 12) (q k : Fin 2048) (d : Fin 64) :
    lidx_main_v0 (ix4 b h q k) d = ix4 b h q d :=
  funext fun a => Fin.ext (by match a with | ⟨0, _⟩ => rfl | ⟨1, _⟩ => rfl | ⟨2, _⟩ => rfl | ⟨3, _⟩ => rfl)

theorem ridx_scores (b : Fin 2) (h : Fin 12) (q k : Fin 2048) (d : Fin 64) :
    ridx_main_v0 (ix4 b h q k) d = ix4 b h k d :=
  funext fun a => Fin.ext (by match a with | ⟨0, _⟩ => rfl | ⟨1, _⟩ => rfl | ⟨2, _⟩ => rfl | ⟨3, _⟩ => rfl)

theorem idx_rowsum (b : Fin 2) (h : Fin 12) (q k k' : Fin 2048) :
    idx_main_v7 (idx_main_v8 (idx_main_v11 (ix4 b h q k))) k' = ix4 b h q k' :=
  funext fun a => Fin.ext (by match a with | ⟨0, _⟩ => rfl | ⟨1, _⟩ => rfl | ⟨2, _⟩ => rfl | ⟨3, _⟩ => rfl)

theorem lidx_context (b : Fin 2) (h : Fin 12) (q : Fin 2048) (d : Fin 64) (k : Fin 2048) :
    lidx_main_v13 (ix4 b h q d) k = ix4 b h q k :=
  funext fun a => Fin.ext (by match a with | ⟨0, _⟩ => rfl | ⟨1, _⟩ => rfl | ⟨2, _⟩ => rfl | ⟨3, _⟩ => rfl)

theorem ridx_context (b : Fin 2) (h : Fin 12) (q : Fin 2048) (d : Fin 64) (k : Fin 2048) :
    ridx_main_v13 (ix4 b h q d) k = ix4 b h k d :=
  funext fun a => Fin.ext (by match a with | ⟨0, _⟩ => rfl | ⟨1, _⟩ => rfl | ⟨2, _⟩ => rfl | ⟨3, _⟩ => rfl)

/-! ## The stages at an index -/

variable (x0 x1 x2 : (⟨S2x12x2048x64, .f32⟩ : BufTy).Contents (Elt Ideal))

/-- The first contraction at (b, h, q, k) is the raw score of key (b, h, k) for query row (b, h, q). -/
theorem scores_apply (b : Fin 2) (h : Fin 12) (q k : Fin 2048) :
    val_main_v0 (F := Ideal) x0 x1 (ix4 b h q k) = score (row4 x0 b h q) (row4 x1 b h) k := by
  rw [val_main_v0_apply]
  unfold score row4
  refine Finset.sum_congr rfl fun d _ => ?_
  rw [lidx_scores, ridx_scores]

/-- After scaling, masking and exponentiating: the weight. -/
theorem weights_apply (b : Fin 2) (h : Fin 12) (q k : Fin 2048) :
    val_main_v6 (F := Ideal) x0 x1 (ix4 b h q k) = wt (score (row4 x0 b h q) (row4 x1 b h) k) := by
  rw [val_main_v6_apply, val_main_v5_apply, val_main_v4_apply, val_main_v2_apply, scores_apply,
    val_main_v1_apply, val_main_v3_apply, val_main_call0_v1_apply, val_main_call0_v0_apply,
    val_main_cst_apply, val_main_cst_0_apply, val_main_cst_1_apply]
  rfl

/-- The row's total weight, as the division reads it at (b, h, q, k). -/
theorem total_apply (b : Fin 2) (h : Fin 12) (q k : Fin 2048) :
    val_main_v7 (F := Ideal) x0 x1 (idx_main_v8 (idx_main_v11 (ix4 b h q k)))
      = ∑ k' : Fin 2048, wt (score (row4 x0 b h q) (row4 x1 b h) k') := by
  rw [val_main_v7_apply, val_main_cst_2_apply]
  show Ideal.ofBits .f32 0x00000000#32 + _ = _
  rw [Ideal.ofBits_zero_f32, zero_add]
  refine Finset.sum_congr rfl fun k' _ => ?_
  rw [idx_rowsum]
  exact weights_apply x0 x1 b h q k'

/-- The attention at (b, h, q, k). -/
theorem attn_apply (b : Fin 2) (h : Fin 12) (q k : Fin 2048) :
    val_main_v12 (F := Ideal) x0 x1 (ix4 b h q k) = attnRow (row4 x0 b h q) (row4 x1 b h) k := by
  rw [val_main_v12_apply, val_main_v11_apply, val_main_v10_apply, val_main_v8_apply, total_apply,
    val_main_v9_apply, val_main_cst_3_apply, weights_apply]
  rfl

/-- The context at (b, h, q, d). -/
theorem ctx_apply (b : Fin 2) (h : Fin 12) (q : Fin 2048) (d : Fin 64) :
    val_main_v13 (F := Ideal) x0 x1 x2 (ix4 b h q d) = ctxRow (row4 x0 b h q) (row4 x1 b h) (row4 x2 b h) d := by
  rw [val_main_v13_apply]
  unfold ctxRow
  refine Finset.sum_congr rfl fun k _ => ?_
  rw [lidx_context, ridx_context, attn_apply]
  rfl

/-! ## The two results as whole arrays -/

/-- The reference's attention result is `attn4` of its first two arguments. -/
theorem attn_eq : val_main_v12 (F := Ideal) x0 x1 = attn4 x0 x1 := by
  funext i
  obtain ⟨b, h, q, k, rfl⟩ : ∃ (b : Fin 2) (h : Fin 12) (q k : Fin 2048), i = ix4 b h q k := ⟨i 0, i 1, i 2, i 3, eq_ix4 i⟩
  exact attn_apply x0 x1 b h q k

/-- The reference's context result is `ctx4` of its three arguments. -/
theorem ctx_eq : val_main_v13 (F := Ideal) x0 x1 x2 = ctx4 x0 x1 x2 := by
  funext i
  obtain ⟨b, h, q, d, rfl⟩ : ∃ (b : Fin 2) (h : Fin 12) (q : Fin 2048) (d : Fin 64), i = ix4 b h q d := ⟨i 0, i 1, i 2, i 3, eq_ix4 i⟩
  exact ctx_apply x0 x1 x2 b h q d

end Cert.ReferenceIdeal.RefValue

end
-- ==== Proof.lean ====
/-
  Thresholded-softmax attention on [2, 12, 2048, 64] queries, keys and values: a tiled kernel against a direct
  computation.

  Both programs compute, for every batch b, head h and query row q, the scores of that row against the 2048 keys of
  slab (b, h) (inner products over 64 columns), scale them by 1/8, replace every scaled score that is not negative by
  -∞, exponentiate, divide by the row's total plus the f32 number nearest 1e-8 — this is the attention, the second
  result — and take the attention-weighted sum of the slab's values — the context, the first result.

  The kernel merges batch and head into 24 slabs, walks a 24 × 8 grid whose point (slab, i) handles 256 query rows
  against the slab's whole key and value tables, rounds its matrix operands to a shorter float format (the identity over
  the extended reals), and splits the slabs back afterwards; the reference contracts the four-axis arrays directly.
  Over the extended reals the two are the same function of the arguments, index by index, in the same order of
  operations; the only law used is that the zero a sum starts from adds nothing, so the finiteness of the inputs is
  never needed.

  The pieces: the specification (Spec), one grid point's stored values at an entry (Payload), from the points' blocks
  to the whole arrays (Blocks), merging and splitting batch and head (Merge), the reshapes around the region and the
  kernel's run (Whole), the reference's operations read at an index (RefValue). The kernel's and its idealization's
  frames are the generated frame modules'; the reference's frame is its generated run with the results dropped; the
  idealization rewrote no operation.
-/
import proofs.«176085_j44272522887183_1_alg».proof.Defs
import proofs.«176085_j44272522887183_1_alg».proof.Proof.Gen.Kernel
import proofs.«176085_j44272522887183_1_alg».proof.Proof.Gen.Kernel.Skeleton
import proofs.«176085_j44272522887183_1_alg».proof.Proof.Gen.Kernel.Launch
import proofs.«176085_j44272522887183_1_alg».proof.Proof.Gen.Kernel.Points
import proofs.«176085_j44272522887183_1_alg».proof.Proof.Gen.Kernel.Frame
import proofs.«176085_j44272522887183_1_alg».proof.Proof.Gen.KernelIdeal
import proofs.«176085_j44272522887183_1_alg».proof.Proof.Gen.KernelIdeal.Skeleton
import proofs.«176085_j44272522887183_1_alg».proof.Proof.Gen.KernelIdeal.Launch
import proofs.«176085_j44272522887183_1_alg».proof.Proof.Gen.KernelIdeal.Points
import proofs.«176085_j44272522887183_1_alg».proof.Proof.Gen.KernelIdeal.Frame
import proofs.«176085_j44272522887183_1_alg».proof.Proof.Gen.ReferenceIdeal
import proofs.«176085_j44272522887183_1_alg».proof.Proof.Gen.ReferenceIdeal.Run
import proofs.«176085_j44272522887183_1_alg».proof.Proof.Gen.ReferenceIdeal.Read
import proofs.«176085_j44272522887183_1_alg».proof.Proof.Gen.Pre_finite_inputs
import proofs.«176085_j44272522887183_1_alg».proof.Proof.Whole
import proofs.«176085_j44272522887183_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with what it says of the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel. -/
theorem preserves : Cert.preserves_Kernel_KernelIdeal := trivial

/-- From memories that agree on the three arguments both programs end with the context and the attention of those
    arguments: the kernel by its run, the reference by its run read operation by operation. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v13_eq, Cert.ReferenceIdeal.RefValue.ctx_eq,
      (hagree c).1, (hagree c).2.1, (hagree c).2.2]
  · rw [(h c).2.1, Cert.ReferenceIdeal.Read.val_main_v12_eq, Cert.ReferenceIdeal.RefValue.attn_eq,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
